-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S1x100000x64 : Shape := ⟨3, ![1, 100000, 64]⟩
abbrev S128x64 : Shape := ⟨2, ![128, 64]⟩
abbrev S64 : Shape := ⟨1, ![64]⟩
abbrev S192x64 : Shape := ⟨2, ![192, 64]⟩
abbrev S192 : Shape := ⟨1, ![192]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x100000x64 : S_.BroadcastsInDim S1x100000x64 (![] : Fin 0 → Fin S1x100000x64.rank)
  reducesTo_S1x100000x64_S_d0_1_2 : S1x100000x64.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg8 : FVec F S192 .f32) (main_v33 : IVec S_ 1) : IVec S_ 1 :=
  let main_v34 : FVec F S192 .f32 := Host.absf main_arg8
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  main_v38

def fn_part1 {F : FTy → Type} [FloatOps F] (main_arg5 : FVec F S192x64 .f32) (main_arg6 : FVec F S192x64 .f32) (main_arg7 : FVec F S192 .f32) (main_arg8 : FVec F S192 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S192x64 .f32 := Host.absf main_arg5
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S192x64 .f32 := Host.absf main_arg6
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S192 .f32 := Host.absf main_arg7
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x3200000 32) (main_arg2 : FVec F S1x100000x64 .f32) (main_arg3 : FVec F S128x64 .f32) (main_arg4 : FVec F S64 .f32) (main_arg5 : FVec F S192x64 .f32) (main_arg6 : FVec F S192x64 .f32) (main_arg7 : FVec F S192 .f32) (main_arg8 : FVec F S192 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x100000x64 .f32 := Host.absf main_arg2
  let main_cst_0 : FVec F S_ .f32 := constant S_ .f32 0x7F800000#32
  let main_v5 : FVec F S1x100000x64 .f32 := broadcastInDim S1x100000x64 ![] bcast_S_S1x100000x64 main_cst_0
  let main_v6 : IVec S1x100000x64 1 := cmpf .olt main_v4 main_v5
  let main_c_1 : IVec S_ 1 := constantI S_ 1 1#1
  let main_v7 : IVec S_ 1 := (fun x v => Host.reduce IntOp.andi x v reducesTo_S1x100000x64_S_d0_1_2 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x128 : Shape := ⟨2, ![100000, 128]⟩
abbrev S2x3200000 : Shape := ⟨2, ![2, 3200000]⟩
abbrev S1x100000x64 : Shape := ⟨3, ![1, 100000, 64]⟩
abbrev S128x64 : Shape := ⟨2, ![128, 64]⟩
abbrev S64 : Shape := ⟨1, ![64]⟩
abbrev S192x64 : Shape := ⟨2, ![192, 64]⟩
abbrev S192 : Shape := ⟨1, ![192]⟩
abbrev S100000x64 : Shape := ⟨2, ![100000, 64]⟩
abbrev S10000x128 : Shape := ⟨2, ![10000, 128]⟩
abbrev S10000x64 : Shape := ⟨2, ![10000, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S64x192 : Shape := ⟨2, ![64, 192]⟩
abbrev S1x192 : Shape := ⟨2, ![1, 192]⟩
abbrev S2000x64 : Shape := ⟨2, ![2000, 64]⟩
abbrev S2000x192 : Shape := ⟨2, ![2000, 192]⟩

abbrev nBuf : Space → Nat
  | .hbm => 74
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S1x100000x64, .f32⟩
  | .hbm, ⟨3, _⟩ => ⟨S128x64, .f32⟩
  | .hbm, ⟨4, _⟩ => ⟨S64, .f32⟩
  | .hbm, ⟨5, _⟩ => ⟨S192x64, .f32⟩
  | .hbm, ⟨6, _⟩ => ⟨S192x64, .f32⟩
  | .hbm, ⟨7, _⟩ => ⟨S192, .f32⟩
  | .hbm, ⟨8, _⟩ => ⟨S192, .f32⟩
  | .hbm, ⟨9, _⟩ => ⟨S100000x64, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x64, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S64x192, .f32⟩
  | .hbm, ⟨69, _⟩ => ⟨S64x192, .f32⟩
  | .hbm, ⟨70, _⟩ => ⟨S1x192, .f32⟩
  | .hbm, ⟨71, _⟩ => ⟨S1x192, .f32⟩
  | .hbm, ⟨72, _⟩ => ⟨S100000x64, .f32⟩
  | .hbm, ⟨73, _⟩ => ⟨S1x100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S1x64, .f32⟩
  | .local _ .vmem, ⟨10, _⟩ => ⟨S64x192, .f32⟩
  | .local _ .vmem, ⟨11, _⟩ => ⟨S64x192, .f32⟩
  | .local _ .vmem, ⟨12, _⟩ => ⟨S1x192, .f32⟩
  | .local _ .vmem, ⟨13, _⟩ => ⟨S1x192, .f32⟩
  | .local _ .vmem, ⟨14, _⟩ => ⟨S2000x64, .f32⟩
  | .local _ .vmem, ⟨15, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S1x100000x64_S100000x64 : S1x100000x64.ShapeCasts S100000x64
  shapeCasts_S64_S1x64 : S64.ShapeCasts S1x64
  transposes_S192x64_S64x192_1_0 : S192x64.Transposes [1, 0] S64x192
  shapeCasts_S192_S1x192 : S192.ShapeCasts S1x192
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  bcast_S100000x64_S1x100000x64_1_2 : S100000x64.BroadcastsInDim S1x100000x64 (![1, 2] : Fin 2 → Fin S1x100000x64.rank)
  dot_S10000x128_S128x64_S10000x64_1_0_0_1_n_n_wf : DotDims.WF S10000x128 S128x64 S10000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S2000x64_S64x192_S2000x192_1_0_0_1_n_n_wf : DotDims.WF S2000x64 S64x192 S2000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x192.size a ≤ S64x192.size a
  hwx1_3 : ∀ i : grid1.Coords, EltTy.bits .f32 = 32 ∨ (Rect.block (s := S64x192) S64x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x192.size a ≤ S64x192.size a
  hwx1_4 : ∀ i : grid1.Coords, EltTy.bits .f32 = 32 ∨ (Rect.block (s := S64x192) S64x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x192.size a ≤ S1x192.size a
  hwx1_5 : ∀ i : grid1.Coords, EltTy.bits .f32 = 32 ∨ (Rect.block (s := S1x192) S1x192.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x192.size a ≤ S1x192.size a
  hwx1_6 : ∀ i : grid1.Coords, EltTy.bits .f32 = 32 ∨ (Rect.block (s := S1x192) S1x192.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S100000x64.size a
  hwx1_7 : ∀ i : grid1.Coords, EltTy.bits .f32 = 32 ∨ (Rect.block (s := S100000x64) S2000x64.size (cc1_transform_7 i) (hinb1_7 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S64x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S64x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x192.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S1x100000x64 : Shape := ⟨3, ![1, 100000, 64]⟩
abbrev S128x64 : Shape := ⟨2, ![128, 64]⟩
abbrev S64 : Shape := ⟨1, ![64]⟩
abbrev S192x64 : Shape := ⟨2, ![192, 64]⟩
abbrev S192 : Shape := ⟨1, ![192]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S64x192 : Shape := ⟨2, ![64, 192]⟩
abbrev S100000x192 : Shape := ⟨2, ![100000, 192]⟩
abbrev S1x192 : Shape := ⟨2, ![1, 192]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S1x100000x64, .f32⟩
  | .hbm, ⟨3, _⟩ => ⟨S128x64, .f32⟩
  | .hbm, ⟨4, _⟩ => ⟨S64, .f32⟩
  | .hbm, ⟨5, _⟩ => ⟨S192x64, .f32⟩
  | .hbm, ⟨6, _⟩ => ⟨S192x64, .f32⟩
  | .hbm, ⟨7, _⟩ => ⟨S192, .f32⟩
  | .hbm, ⟨8, _⟩ => ⟨S192, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x64, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S64x192, .f32⟩
  | .hbm, ⟨74, _⟩ => ⟨S100000x192, .f32⟩
  | .hbm, ⟨75, _⟩ => ⟨S1x192, .f32⟩
  | .hbm, ⟨76, _⟩ => ⟨S100000x192, .f32⟩
  | .hbm, ⟨77, _⟩ => ⟨S100000x192, .f32⟩
  | .hbm, ⟨78, _⟩ => ⟨S64x192, .f32⟩
  | .hbm, ⟨79, _⟩ => ⟨S100000x192, .f32⟩
  | .hbm, ⟨80, _⟩ => ⟨S1x192, .f32⟩
  | .hbm, ⟨81, _⟩ => ⟨S100000x192, .f32⟩
  | .hbm, ⟨82, _⟩ => ⟨S100000x192, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000x64, .f32⟩
  | .hbm, ⟨103, _⟩ => ⟨S100000x64, .f32⟩
  | .hbm, ⟨104, _⟩ => ⟨S_, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S100000x64, .f32⟩
  | .hbm, ⟨109, _⟩ => ⟨S100000x64, .f32⟩
  | .hbm, ⟨110, _⟩ => ⟨S_, .f32⟩
  | .hbm, ⟨111, _⟩ => ⟨S100000x64, .f32⟩
  | .hbm, ⟨112, _⟩ => ⟨S100000x64, .f32⟩
  | .hbm, ⟨113, _⟩ => ⟨S100000x64, .f32⟩
  | .hbm, ⟨114, _⟩ => ⟨S100000x64, .f32⟩
  | .hbm, ⟨115, _⟩ => ⟨S100000x64, .f32⟩
  | .hbm, ⟨116, _⟩ => ⟨S1x100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_9 : Ref sig .tc := ⟨.hbm, 92, rfl⟩
abbrev main_v68 : Ref sig .tc := ⟨.hbm, 93, rfl⟩
abbrev main_v69 : Ref sig .tc := ⟨.hbm, 94, rfl⟩
abbrev main_cst_10 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_11 : Ref sig .tc := ⟨.hbm, 101, rfl⟩
abbrev main_v75 : Ref sig .tc := ⟨.hbm, 102, rfl⟩
abbrev main_v76 : Ref sig .tc := ⟨.hbm, 103, rfl⟩
abbrev main_cst_12 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_13 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S1x100000x64_S100000x64 : S1x100000x64.ShapeCasts S100000x64
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  bcast_S100000x64_S1x100000x64_1_2 : S100000x64.BroadcastsInDim S1x100000x64 (![1, 2] : Fin 2 → Fin S1x100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x192_S100000x192_1_0_0_1_n_n_wf : DotDims.WF S100000x64 S64x192 S100000x192 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf

class Facts : Prop extends Facts₀ where

variable [Facts]
-- ==== Proof.RefAgg.lean ====
/-
  The aggregation over the edges, as the chain of host operations both programs apply.

  With `row` and `col` the source and target lists (the edge list's two rows with the self loops appended) and `dis`
  the inverse square roots of the degrees:  every edge e carries the weight  dis[row e] · dis[col e],  the row
  `row e` of the transformed features is gathered and scaled by that weight, and the scaled rows are scatter-added to
  the target nodes `col e`.  A negative index is wrapped once by the node count before it is used.  The chain is stated as one
  function of the transformed features, the two index lists and `dis`; nothing later opens it.
-/
import proofs.«100885_j70489003261973_1_alg».proof.Proof.RefRead

noncomputable section

namespace Cert.ReferenceIdeal.RefValue

open Cert.ReferenceIdeal Cert.ReferenceIdeal.Gen Cert.ReferenceIdeal.Read
open Idealize.ShloMosaic

variable {F : FTy → Type} [FloatOps F]

/-- An index list as a column, a negative index wrapped once by the node count. -/
def wrapCol (ix : (⟨S3300000, .i32⟩ : BufTy).Contents (Elt F)) : (⟨S3300000x1, .i32⟩ : BufTy).Contents (Elt F) :=
  broadcastInDim S3300000x1 ![0] bcast_S3300000_S3300000x1_0
    (select (cmpi .slt ix (broadcastInDim S3300000 ![] bcast_S_S3300000 (constantI S_ 32 0#32)))
      (addi ix (broadcastInDim S3300000 ![] bcast_S_S3300000 (constantI S_ 32 100000#32))) ix)

/-- The weighted gather and scatter-add over the edges. -/
def edgeSum (xt : (⟨S100000x64, .f32⟩ : BufTy).Contents (Elt F)) (row col : (⟨S3300000, .i32⟩ : BufTy).Contents (Elt F))
    (dis : (⟨S100000, .f32⟩ : BufTy).Contents (Elt F)) : (⟨S100000x64, .f32⟩ : BufTy).Contents (Elt F) :=
  Host.scatterAdd scatter_S100000x64_S3300000x1_S3300000x64_1_0_0_1
    (broadcastInDim S100000x64 ![] bcast_S_S100000x64 (constant S_ .f32 0x00000000#32))
    (broadcastInDim S3300000x1 ![0] bcast_S3300000_S3300000x1_0 col)
    (mulf
      (broadcastInDim S3300000x64 ![0, 1] bcast_S3300000x1_S3300000x64_0_1
        (broadcastInDim S3300000x1 ![0] bcast_S3300000_S3300000x1_0
          (mulf (Host.gather gather_S100000_S3300000x1_S3300000_n_0_n_n_0_1_1 dis (wrapCol row))
            (Host.gather gather_S100000_S3300000x1_S3300000_n_0_n_n_0_1_1 dis (wrapCol col)))))
      (Host.gather gather_S100000x64_S3300000x1_S3300000x64_1_0_n_n_0_1_164 xt (wrapCol row)))

/-- Zero where the degree is not positive, the given value elsewhere: the `where` of the normalisation. -/
def whereZero (pos : (⟨S100000, .i1⟩ : BufTy).Contents (Elt F)) (v : (⟨S100000, .f32⟩ : BufTy).Contents (Elt F))
    (z : (⟨S_, .f32⟩ : BufTy).Contents (Elt F)) : (⟨S100000, .f32⟩ : BufTy).Contents (Elt F) :=
  select pos v (broadcastInDim S100000 ![] bcast_S_S100000 (id z))

/-- The aggregation as a function of the transformed features and the edge list. -/
def agg (xt : (⟨S100000x64, .f32⟩ : BufTy).Contents (Elt F)) (x1 : (⟨S2x3200000, .i32⟩ : BufTy).Contents (Elt F)) :
    (⟨S100000x64, .f32⟩ : BufTy).Contents (Elt F) :=
  edgeSum xt (val_main_v3 (F := F) x1) (val_main_v6 (F := F) x1)
    (whereZero (val_main_v12 (F := F) x1) (val_main_v13 (F := F) x1) (val_main_cst_2 (F := F)))

/-- The reference's normalisation vector is the `where` of its comparison and its inverse square root. -/
theorem v14_eq (x1 : (⟨S2x3200000, .i32⟩ : BufTy).Contents (Elt F)) :
    val_main_v14 (F := F) x1 = whereZero (val_main_v12 (F := F) x1) (val_main_v13 (F := F) x1) (val_main_cst_2 (F := F)) := by
  unfold val_main_v14 val_main_call0_v1 val_main_call0_v0 whereZero
  rfl

/-- The reference's aggregate is `agg` of its transformed features. -/
theorem v43_agg (x0 : (⟨S100000x128, .f32⟩ : BufTy).Contents (Elt F)) (x1 : (⟨S2x3200000, .i32⟩ : BufTy).Contents (Elt F))
    (x3 : (⟨S128x64, .f32⟩ : BufTy).Contents (Elt F)) :
    val_main_v43 (F := F) x0 x1 x3 = agg (val_main_v30 (F := F) x0 x3) x1 := by
  unfold agg
  rw [← v14_eq]
  simp only [val_main_v43, val_main_v42, val_main_v41, val_main_cst_8, val_main_v40, val_main_v39, val_main_v38, val_main_v37,
    val_main_v36, val_main_v35, val_main_v34, val_main_c_7, val_main_v33, val_main_v32, val_main_c_6, val_main_v31, val_main_v29,
    val_main_v28, val_main_v27, val_main_v26, val_main_v25, val_main_c_5, val_main_v24, val_main_v23, val_main_v22, val_main_c_4,
    val_main_v21, val_main_v20, val_main_v19, val_main_v18, val_main_v17, val_main_c_3, val_main_v16, val_main_v15, val_main_c,
    edgeSum, wrapCol]

end Cert.ReferenceIdeal.RefValue

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«100885_j70489003261973_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.Spec.lean ====
/-
  The two functions both programs compute, stated once over the extended reals.

  * The transformed features are the plain matrix product  x · W  (LibDotGeneralPlain's `matProd`).
  * One step of the gated recurrent cell on a row of `g = max(a + b, 0)` and a row of the hidden state `h`:
      gi = g · Wi + bi,   gh = h · Wh + bh            (rows of length 192: the reset, update and candidate thirds)
      r = σ(gi_r + gh_r),  z = σ(gi_z + gh_z),  n = tanh(gi_n + r · gh_n),   out = (1 − z) · n + z · h
    with σ(t) = 1 / (1 + e^(−t)).
  Nothing here mentions a program: the arrays are functions of indices of literal shapes.
-/
import proofs.«100885_j70489003261973_1_alg».proof.Proof.LibDotGeneralPlain
import Idealize.ShloMosaic.PureOps.Ideal
import Idealize.ShloMosaic.Lib.ValueIdx

noncomputable section

open scoped BigOperators

namespace Cert.Spec

open Idealize.ShloMosaic Idealize.ShloMosaic.ValueIdx

/-- The literals the cell uses: the word of 1.0 and the word of 0.0 (never evaluated: both sides carry the same words). -/
abbrev one : EReal := Ideal.ofBits .f32 0x3F800000#32
abbrev zero : EReal := Ideal.ofBits .f32 0x00000000#32

/-- The word of 1.0 denotes the number 1: its sign bit is clear and its exponent field is 127, so it reads
    2^23 · 2^(127 − 127 − 23) = 1. -/
theorem ofBits_one : Ideal.ofBits .f32 0x3F800000#32 = 1 := by
  have hexp : (1065353216 >>> 23 % 256 : Nat) = 127 := by decide
  have hsign : BitVec.extractLsb' 31 1 1065353216#32 ≠ 1#1 := by decide
  norm_num [Ideal.ofBits, Ideal.ieee, hexp, hsign]

/-- A row against column `j` of a 64×192 weight matrix, plus entry `j` of the bias row. -/
def lin (g : Fin 64 → EReal) (w : (⟨2, ![64, 192]⟩ : Shape).Idx → EReal) (b : (⟨2, ![1, 192]⟩ : Shape).Idx → EReal)
    (j : Fin 192) : EReal :=
  (∑ k : Fin 64, g k * w (ix2 k j)) + b (ix2 (0 : Fin 1) j)

/-- Column `q` of the reset, update and candidate thirds of a 192-wide row. -/
def colR (q : Fin 64) : Fin 192 := ⟨0 + q.val, by have := q.isLt; omega⟩
def colZ (q : Fin 64) : Fin 192 := ⟨64 + q.val, by have := q.isLt; omega⟩
def colN (q : Fin 64) : Fin 192 := ⟨128 + q.val, by have := q.isLt; omega⟩

/-- The cell's output at column `q` from the two pre-activation rows and the hidden entry. -/
def cell (gi gh : Fin 192 → EReal) (h : EReal) (q : Fin 64) : EReal :=
  (one - Ideal.logistic (gi (colZ q) + gh (colZ q)))
      * Ideal.tanh (gi (colN q) + Ideal.logistic (gi (colR q) + gh (colR q)) * gh (colN q))
    + Ideal.logistic (gi (colZ q) + gh (colZ q)) * h

/-- The rectified aggregate at `(r, k)`. -/
def pre {R : Nat} (a : (⟨2, ![R, 64]⟩ : Shape).Idx → EReal) (b : (⟨2, ![1, 64]⟩ : Shape).Idx → EReal) (r : Fin R) (k : Fin 64) : EReal :=
  max (a (ix2 r k) + b (ix2 (0 : Fin 1) k)) zero

/-- THE STEP on R rows: entry `(r, q)` of the new hidden state from the aggregate `a`, the hidden state `h`, the bias
    row `b`, the two 64×192 weight matrices and the two bias rows. -/
def step {R : Nat} (a h : (⟨2, ![R, 64]⟩ : Shape).Idx → EReal) (b : (⟨2, ![1, 64]⟩ : Shape).Idx → EReal)
    (wi wh : (⟨2, ![64, 192]⟩ : Shape).Idx → EReal) (bi bh : (⟨2, ![1, 192]⟩ : Shape).Idx → EReal) :
    (⟨2, ![R, 64]⟩ : Shape).Idx → EReal :=
  fun i => cell (lin (pre a b (i 0)) wi bi) (lin (fun k => h (ix2 (i 0) k)) wh bh) (h (ix2 (i 0) (i 1))) (i 1)

theorem step_apply {R : Nat} (a h : (⟨2, ![R, 64]⟩ : Shape).Idx → EReal) (b : (⟨2, ![1, 64]⟩ : Shape).Idx → EReal)
    (wi wh : (⟨2, ![64, 192]⟩ : Shape).Idx → EReal) (bi bh : (⟨2, ![1, 192]⟩ : Shape).Idx → EReal) (r : Fin R) (q : Fin 64) :
    step a h b wi wh bi bh (ix2 r q)
      = cell (lin (pre a b r) wi bi) (lin (fun k => h (ix2 r k)) wh bh) (h (ix2 r q)) q := rfl

/-- `matProd` moved along rows: if row `y 0` of `x` is row `i 0` of `X`, the right operands agree and the columns
    agree, then entry `y` of `x · w` is entry `i` of `X · W`. -/
theorem matProd_reindex {M M' K N : Nat} (X : (⟨2, ![M', K]⟩ : Shape).Idx → EReal) (x : (⟨2, ![M, K]⟩ : Shape).Idx → EReal)
    (W w : (⟨2, ![K, N]⟩ : Shape).Idx → EReal) (y : (⟨2, ![M, N]⟩ : Shape).Idx) (i : (⟨2, ![M', N]⟩ : Shape).Idx)
    (hx : ∀ k : Fin K, x (ix2 (y 0) k) = X (ix2 (i 0) k)) (hw : w = W) (h1 : (y 1).val = (i 1).val) :
    Cert.LibDotGeneralPlain.matProd x w y = Cert.LibDotGeneralPlain.matProd X W i := by
  subst hw
  have e1 : (y 1 : Fin N) = (i 1 : Fin N) := Fin.ext h1
  show ∑ k : Fin K, x (ix2 (y 0) k) * w (ix2 k (y 1 : Fin N)) = ∑ k : Fin K, X (ix2 (i 0) k) * w (ix2 k (i 1 : Fin N))
  rw [e1]
  exact Finset.sum_congr rfl fun k _ => by rw [hx k]

/-- `step` moved along rows: if row `y 0` of the block arrays is row `i 0` of the whole arrays, the shared operands
    agree and the columns agree, then entry `y` of the step on the block is entry `i` of the step on the whole arrays. -/
theorem step_reindex {R R' : Nat} (A H : (⟨2, ![R', 64]⟩ : Shape).Idx → EReal) (a h : (⟨2, ![R, 64]⟩ : Shape).Idx → EReal)
    (B b : (⟨2, ![1, 64]⟩ : Shape).Idx → EReal) (WI wi WH wh : (⟨2, ![64, 192]⟩ : Shape).Idx → EReal)
    (BI bi BH bh : (⟨2, ![1, 192]⟩ : Shape).Idx → EReal)
    (y : (⟨2, ![R, 64]⟩ : Shape).Idx) (i : (⟨2, ![R', 64]⟩ : Shape).Idx)
    (ha : ∀ k : Fin 64, a (ix2 (y 0) k) = A (ix2 (i 0) k)) (hh : ∀ k : Fin 64, h (ix2 (y 0) k) = H (ix2 (i 0) k))
    (hb : b = B) (hwi : wi = WI) (hwh : wh = WH) (hbi : bi = BI) (hbh : bh = BH) (h1 : (y 1).val = (i 1).val) :
    step a h b wi wh bi bh y = step A H B WI WH BI BH i := by
  subst hb hwi hwh hbi hbh
  have e1 : (y 1 : Fin 64) = (i 1 : Fin 64) := Fin.ext h1
  have ep : pre a b (y 0) = pre A b (i 0) := funext fun k => by unfold pre; rw [ha k]
  have eh : (fun k : Fin 64 => h (ix2 (y 0) k)) = fun k : Fin 64 => H (ix2 (i 0) k) := funext hh
  show cell (lin (pre a b (y 0)) wi bi) (lin (fun k => h (ix2 (y 0) k)) wh bh) (h (ix2 (y 0) (y 1 : Fin 64))) (y 1 : Fin 64)
    = cell (lin (pre A b (i 0)) wi bi) (lin (fun k => H (ix2 (i 0) k)) wh bh) (H (ix2 (i 0) (i 1 : Fin 64))) (i 1 : Fin 64)
  rw [ep, eh, e1, hh (i 1 : Fin 64)]

end Cert.Spec

end
-- ==== Proof.RefValue.lean ====
/-
  The reference's first result, entry by entry, is the recurrent step of Spec.lean.

  The reference aggregates the transformed features  x · W  over the edges (the host chain `agg` of RefAgg.lean,
  shared with the kernel's program and never opened), adds the bias, rectifies, multiplies with the transposed weight matrices,
  adds the biases, cuts the 192-wide rows into thirds and combines them with the hidden state, the logistic function
  spelt as  1 / (1 + e^(−t)).  Over the extended reals that quotient is the logistic function itself, the word of 1.0
  denoting 1, and each entry is `Spec.step` of the aggregate, the hidden state with its leading unit axis dropped, the
  bias vectors as rows and the weight matrices transposed.
-/
import proofs.«100885_j70489003261973_1_alg».proof.Proof.RefRead
import proofs.«100885_j70489003261973_1_alg».proof.Proof.RefAgg
import proofs.«100885_j70489003261973_1_alg».proof.Proof.Spec
import Idealize.ShloMosaic.Lib.ValueLayout

noncomputable section

open scoped BigOperators

namespace Cert.ReferenceIdeal.RefValue

open Cert.ReferenceIdeal Cert.ReferenceIdeal.Gen Cert.ReferenceIdeal.Read
open Idealize.ShloMosaic Idealize.ShloMosaic.ValueIdx Cert.LibDotGeneralPlain Cert.Spec

/-- The reference's aggregate is `agg` of its matrix product. -/
theorem v43_eq (x0 : (⟨S100000x128, .f32⟩ : BufTy).Contents (Elt Ideal)) (x1 : (⟨S2x3200000, .i32⟩ : BufTy).Contents (Elt Ideal))
    (x3 : (⟨S128x64, .f32⟩ : BufTy).Contents (Elt Ideal)) :
    val_main_v43 (F := Ideal) x0 x1 x3 = agg (matProd x0 x3) x1 := by
  have e : val_main_v30 (F := Ideal) x0 x3 = matProd x0 x3 := by
    unfold val_main_v30
    exact dotGeneral_plain_eq dot_S100000x128_S128x64_S100000x64_1_0_0_1_n_n rfl none _ x0 x3
  rw [v43_agg, e]

/-- The quotient 1 / (1 + e^(−t)) with the word of 1.0 is the logistic function. -/
theorem sigma_eq (t : EReal) :
    Ideal.div (Ideal.ofBits .f32 0x3F800000#32) (Ideal.ofBits .f32 0x3F800000#32 + Ideal.exp (-t)) = Ideal.logistic t := by
  rw [ofBits_one]
  rfl

variable (x0 : (⟨S100000x128, .f32⟩ : BufTy).Contents (Elt Ideal)) (x1 : (⟨S2x3200000, .i32⟩ : BufTy).Contents (Elt Ideal))
  (x2 : (⟨S1x100000x64, .f32⟩ : BufTy).Contents (Elt Ideal)) (x3 : (⟨S128x64, .f32⟩ : BufTy).Contents (Elt Ideal))
  (x4 : (⟨S64, .f32⟩ : BufTy).Contents (Elt Ideal)) (x5 x6 : (⟨S192x64, .f32⟩ : BufTy).Contents (Elt Ideal))
  (x7 x8 : (⟨S192, .f32⟩ : BufTy).Contents (Elt Ideal))
  (hh : S1x100000x64.ShapeCasts S100000x64) (hb : S64.ShapeCasts S1x64) (ht : S192x64.Transposes [1, 0] S64x192)
  (hv : S192.ShapeCasts S1x192)

/-- The rectified aggregate plus bias at `(r, k)`. -/
theorem pre_apply (r : Fin 100000) (k : Fin 64) :
    val_main_v47 (F := Ideal) x0 x1 x3 x4 (ix2 r k) = pre (agg (matProd x0 x3) x1) (shapeCast S1x64 x4 hb) r k := by
  unfold pre
  have ei : idx_main_v44 (idx_main_v45 (ix2 r k)) = ix1 k := funext fun a => Fin.ext (by match a with | ⟨0, _⟩ => rfl)
  rw [shapeCast_a_1a_apply, val_main_v47_apply, val_main_v46_apply, val_main_v45_apply, val_main_v44_apply,
    val_main_call1_v0_apply, val_main_call1_cst_apply, v43_eq, ei, Ideal.maximumf_def, Ideal.addf_def, Ideal.ofBits_def]

/-- The input-side pre-activations at `(r, j)`. -/
theorem gi_apply (r : Fin 100000) (j : Fin 192) :
    val_main_v53 (F := Ideal) x0 x1 x3 x4 x5 x7 (ix2 r j)
      = lin (pre (agg (matProd x0 x3) x1) (shapeCast S1x64 x4 hb) r) (transpose S64x192 [1, 0] x5 ht) (shapeCast S1x192 x7 hv) j := by
  unfold lin
  have e1 : idx_main_v51 (idx_main_v52 (ix2 r j)) = ix1 j := funext fun a => Fin.ext (by match a with | ⟨0, _⟩ => rfl)
  have e49 : val_main_v49 (F := Ideal) x5 = transpose S64x192 [1, 0] x5 ht := rfl
  rw [shapeCast_a_1a_apply, val_main_v53_apply, val_main_v52_apply, val_main_v51_apply, val_main_v50_apply, e1, Ideal.addf_def]
  refine congrArg (· + x7 (ix1 j)) (Finset.sum_congr rfl fun k _ => ?_)
  have el : lidx_main_v50 (ix2 r j) k = ix2 r k := funext fun a => Fin.ext (by match a with | ⟨0, _⟩ => rfl | ⟨1, _⟩ => rfl)
  have er : ridx_main_v50 (ix2 r j) k = ix2 k j := funext fun a => Fin.ext (by match a with | ⟨0, _⟩ => rfl | ⟨1, _⟩ => rfl)
  rw [el, er, pre_apply x0 x1 x3 x4 hb, e49]

/-- The hidden-side pre-activations at `(r, j)`. -/
theorem gh_apply (r : Fin 100000) (j : Fin 192) :
    val_main_v58 (F := Ideal) x2 x6 x8 (ix2 r j)
      = lin (fun k => shapeCast S100000x64 x2 hh (ix2 r k)) (transpose S64x192 [1, 0] x6 ht) (shapeCast S1x192 x8 hv) j := by
  unfold lin
  have e1 : idx_main_v56 (idx_main_v57 (ix2 r j)) = ix1 j := funext fun a => Fin.ext (by match a with | ⟨0, _⟩ => rfl)
  have e48 : val_main_v48 (F := Ideal) x2 = shapeCast S100000x64 x2 hh := rfl
  have e54 : val_main_v54 (F := Ideal) x6 = transpose S64x192 [1, 0] x6 ht := rfl
  rw [shapeCast_a_1a_apply, val_main_v58_apply, val_main_v57_apply, val_main_v56_apply, val_main_v55_apply, e1, Ideal.addf_def]
  refine congrArg (· + x8 (ix1 j)) (Finset.sum_congr rfl fun k _ => ?_)
  have el : lidx_main_v55 (ix2 r j) k = ix2 r k := funext fun a => Fin.ext (by match a with | ⟨0, _⟩ => rfl | ⟨1, _⟩ => rfl)
  have er : ridx_main_v55 (ix2 r j) k = ix2 k j := funext fun a => Fin.ext (by match a with | ⟨0, _⟩ => rfl | ⟨1, _⟩ => rfl)
  rw [el, er, e48, e54]

/-- THE REFERENCE'S FIRST RESULT at `(r, q)`: the recurrent step. -/
theorem out_apply (r : Fin 100000) (q : Fin 64) :
    val_main_v86 (F := Ideal) x0 x1 x2 x3 x4 x5 x6 x7 x8 (ix2 r q)
      = step (agg (matProd x0 x3) x1) (shapeCast S100000x64 x2 hh) (shapeCast S1x64 x4 hb)
          (transpose S64x192 [1, 0] x5 ht) (transpose S64x192 [1, 0] x6 ht) (shapeCast S1x192 x7 hv) (shapeCast S1x192 x8 hv) (ix2 r q) := by
  rw [step_apply]
  unfold cell
  have e48 : val_main_v48 (F := Ideal) x2 = shapeCast S100000x64 x2 hh := rfl
  have i59 : idx_main_v59 (ix2 r q) = ix2 r (colR q) := funext fun a => Fin.ext (by match a with | ⟨0, _⟩ => rfl | ⟨1, _⟩ => exact (Nat.zero_add _).symm)
  have i60 : idx_main_v60 (ix2 r q) = ix2 r (colZ q) := funext fun a => Fin.ext (by match a with | ⟨0, _⟩ => rfl | ⟨1, _⟩ => rfl)
  have i61 : idx_main_v61 (ix2 r q) = ix2 r (colN q) := funext fun a => Fin.ext (by match a with | ⟨0, _⟩ => rfl | ⟨1, _⟩ => rfl)
  have i62 : idx_main_v62 (ix2 r q) = ix2 r (colR q) := funext fun a => Fin.ext (by match a with | ⟨0, _⟩ => rfl | ⟨1, _⟩ => exact (Nat.zero_add _).symm)
  have i63 : idx_main_v63 (ix2 r q) = ix2 r (colZ q) := funext fun a => Fin.ext (by match a with | ⟨0, _⟩ => rfl | ⟨1, _⟩ => rfl)
  have i64 : idx_main_v64 (ix2 r q) = ix2 r (colN q) := funext fun a => Fin.ext (by match a with | ⟨0, _⟩ => rfl | ⟨1, _⟩ => rfl)
  rw [val_main_v86_apply, val_main_v84_apply, val_main_v85_apply, val_main_v83_apply, val_main_v82_apply, val_main_cst_13_apply,
    val_main_v81_apply, val_main_v80_apply, val_main_v79_apply, val_main_v78_apply, val_main_v77_apply, val_main_cst_12_apply,
    val_main_v76_apply, val_main_v75_apply, val_main_cst_11_apply, val_main_v74_apply, val_main_v73_apply, val_main_v72_apply,
    val_main_v71_apply, val_main_v70_apply, val_main_cst_10_apply, val_main_v69_apply, val_main_v68_apply, val_main_cst_9_apply,
    val_main_v67_apply, val_main_v66_apply, val_main_v65_apply, val_main_v64_apply, val_main_v63_apply, val_main_v62_apply,
    val_main_v61_apply, val_main_v60_apply, val_main_v59_apply, i59, i60, i61, i62, i63, i64, e48,
    gi_apply x0 x1 x3 x4 x5 x7 hb ht hv, gi_apply x0 x1 x3 x4 x5 x7 hb ht hv, gi_apply x0 x1 x3 x4 x5 x7 hb ht hv,
    gh_apply x2 x6 x8 hh ht hv, gh_apply x2 x6 x8 hh ht hv, gh_apply x2 x6 x8 hh ht hv]
  simp only [Ideal.addf_def, Ideal.subf_def, Ideal.mulf_def, Ideal.hostDivf_def, Ideal.hostUnary_exp_def, Ideal.hostUnary_tanh_def,
    Ideal.hostNegf_def, Ideal.negf_def, Ideal.ofBits_def, sigma_eq]

/-- The reference's first result as one function of the arguments. -/
theorem out_eq :
    val_main_v86 (F := Ideal) x0 x1 x2 x3 x4 x5 x6 x7 x8
      = step (agg (matProd x0 x3) x1) (shapeCast S100000x64 x2 hh) (shapeCast S1x64 x4 hb)
          (transpose S64x192 [1, 0] x5 ht) (transpose S64x192 [1, 0] x6 ht) (shapeCast S1x192 x7 hv) (shapeCast S1x192 x8 hv) := by
  funext i
  obtain ⟨r, q, rfl⟩ : ∃ (r : Fin 100000) (q : Fin 64), i = ix2 r q := ⟨i 0, i 1, eq_ix2 i⟩
  exact out_apply x0 x1 x2 x3 x4 x5 x6 x7 x8 hh hb ht hv r q

end Cert.ReferenceIdeal.RefValue

end
-- ==== Proof.KernelRun.lean ====
/-
  The whole program's run with its two results named.

  The program is two pipelined regions among stretches of host operations.  The buffer contents at every boundary are a
  fold from the launch memory; after the last stretch every unscoped buffer holds what that fold gives it.  The run
  below states this for the two result buffers as well as for the nine arguments: each result ends at the last
  boundary's contents of its buffer, each argument as launched.
-/
import proofs.«100885_j70489003261973_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two results end at the last boundary's contents of
    their buffers and the arguments end as launched. -/
theorem run_results : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       h c _ (mem_uc main_v51 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Whole

end
-- ==== Proof.Region0.lean ====
/-
  What the first region leaves in its result array: the plain matrix product of its two operand arrays.

  The region runs over ten points.  Point t reads rows 10000·t … 10000·t + 9999 of the feature array and the whole
  weight matrix, stores their product into its staging block, and writes the block back as the same rows of the
  result.  An entry of a product depends only on its own row of the left operand, so the block written at point t is
  the block of the whole product; the ten blocks cover the result, which therefore ends as the whole product.
  The statements take the region's entry contents `V` as a parameter.
-/
import proofs.«100885_j70489003261973_1_alg».proof.Proof.Gen.KernelIdeal.Frame
import proofs.«100885_j70489003261973_1_alg».proof.Proof.LibMatmulPlain
import proofs.«100885_j70489003261973_1_alg».proof.Proof.Spec
import Idealize.ShloMosaic.Lib.Pipeline.Value

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)
open Cert.LibMatmulPlain Cert.LibDotGeneralPlain Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem stored_eq (x : Vec Ideal S10000x128 .f32) (w : Vec Ideal S128x64 .f32) : k0_pay1 x w = matProd x w := by
  funext y
  obtain ⟨p, q, rfl⟩ : ∃ (p : Fin 10000) (q : Fin 64), y = ix2 p q := ⟨y 0, y 1, eq_ix2 y⟩
  unfold k0_pay1
  exact matmul_plain_zero_apply dot_S10000x128_S128x64_S10000x64_1_0_0_1_n_n rfl none
    (truncf .bf16 x bitsLt_bf16_f32) (truncf .bf16 w bitsLt_bf16_f32) p q

/-- The block indices over the grid: the feature and result windows move down the rows with the point, the weight
    window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows 10000·t … of the feature array. -/
theorem feat_apply (c : Dev nD) (t : Fin cfg0.N) (x : S10000x128.Idx) (k : S100000x128.Idx)
    (hk0 : (k 0).val = 10000 * t.val + (x 0).val) (hk1 : (k 1).val = (x 1).val) :
    (iblk0 V c 0 t : Vec Ideal S10000x128 .f32) x = (V c main_arg0 : S100000x128.Idx → EReal) k := by
  obtain ⟨e0, e1, -, -, -, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 10000 + 1 * (x 0).val = (k 0).val; rw [e0, hk0]; omega
  | ⟨1, _⟩ => show win0_0.index t (1 : Fin 2) * 128 + 1 * (x 1).val = (k 1).val; rw [e1, hk1]; omega

/-- The weight window's block at every point is the whole weight matrix. -/
theorem weight_eq (c : Dev nD) (t : Fin cfg0.N) :
    (iblk0 V c 1 t : Vec Ideal S128x64 .f32) = (V c main_arg3 : S128x64.Idx → EReal) := by
  obtain ⟨-, -, e2, e3, -, -⟩ := idx_facts t
  funext x
  unfold iblk0
  rw [View.read_apply]
  show V c main_arg3 _ = V c main_arg3 _
  refine congrArg (V c main_arg3) ?_
  funext a
  apply Fin.ext
  match a with
  | ⟨0, _⟩ => show win0_1.index t (0 : Fin 2) * 128 + 1 * (x 0).val = (x 0).val; rw [e2]; omega
  | ⟨1, _⟩ => show win0_1.index t (1 : Fin 2) * 64 + 1 * (x 1).val = (x 1).val; rw [e3]; omega

/-- WHAT POINT `t` WRITES BACK is block `t` of the whole product. -/
theorem flushed_eq (c : Dev nD) (t : Fin cfg0.N) :
    (dat0 V c).flushed 2 t = ((cfg0.win 2).blk t).view.read (Elt Ideal) (matProd (V c main_arg0) (V c main_arg3)) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  rw [stored_eq]
  refine funext fun (y : S10000x64.Idx) => ?_
  refine matProd_reindex (M := 10000) (M' := 100000) (K := 128) (N := 64) (V c main_arg0) (iblk0 V c 0 t) (V c main_arg3) (iblk0 V c 1 t)
    y (((cfg0.win 2).blk t).view.emb y) (fun k => ?_) (weight_eq V c t) ?_
  · refine feat_apply V c t (ix2 (y 0) k) _ ?_ rfl
    show win0_2.index t (0 : Fin 2) * 10000 + 1 * (y 0).val = 10000 * t.val + (y 0).val
    rw [e4]; omega
  · show (y 1).val = win0_2.index t (1 : Fin 2) * 64 + 1 * (y 1).val
    rw [e5]; omega

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Every index of the result is in the block of the point its row falls in. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have hlt : (i 0).val / 10000 < cfg0.N := by rw [hN]; omega
  obtain ⟨-, -, -, -, e4, e5⟩ := idx_facts ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 64 ≤ (i 1).val ∧ (i 1).val < win0_2.index ⟨(i 0).val / 10000, hlt⟩ (1 : Fin 2) * 64 + 64
    rw [e5]; omega

/-- THE RESULT ARRAY after the region: the whole product of the feature array and the weight matrix as the region finds them. -/
theorem final (c : Dev nD) : (dat0 V c).arrAt 2 cfg0.N = matProd (V c main_arg0) (V c main_arg3) :=
  (dat0 V c).arrAt_eq_of_cover 2 (matProd (V c main_arg0) (V c main_arg3)) (fun t _ => flushed_eq V c t) (cover)

end Cert.KernelIdeal.Region0

end
-- ==== Proof.Body1.lean ====
/-
  The second kernel's body at an entry of its 2000-row block, over the extended reals.

  The body adds the bias row to the aggregate block and rectifies it, multiplies that and the hidden-state block with
  the two 64×192 weight matrices (into zero accumulators), adds the two bias rows, cuts the two 192-wide results into
  their reset, update and candidate thirds, and combines them with the hidden state.  Entry (p, q) of what it stores is
  the recurrent step of Spec.lean on the block's rows: `Spec.step` at 2000 rows.
-/
import proofs.«100885_j70489003261973_1_alg».proof.Proof.Gen.KernelIdeal.Skeleton
import proofs.«100885_j70489003261973_1_alg».proof.Proof.LibMatmulPlain
import proofs.«100885_j70489003261973_1_alg».proof.Proof.Spec
import Idealize.ShloMosaic.Lib.ValueLayout
import Idealize.ShloMosaic.Lib.Pipeline.Value

noncomputable section

open scoped BigOperators

namespace Cert.KernelIdeal.Body1

open Cert.KernelIdeal Cert.KernelIdeal.Gen
open Idealize.ShloMosaic Idealize.ShloMosaic.ValueIdx Cert.LibMatmulPlain Cert.Spec

/-- A 2000×64 block `g` times a 64×192 matrix into the zero accumulator, plus a bias row broadcast over the rows: at
    `(p, j)` the sum over k of g(p, k) · w(k, j), plus b(0, j). -/
theorem affine_apply (g : FVec Ideal S2000x64 .f32) (w : Vec Ideal S64x192 .f32) (b : Vec Ideal S1x192 .f32)
    (p : Fin 2000) (j : Fin 192) :
    addf (matmul dot_S2000x64_S64x192_S2000x192_1_0_0_1_n_n none (truncf .bf16 g bitsLt_bf16_f32)
          (truncf .bf16 (shapeCast S64x192 w shapeCasts_S64x192_S64x192) bitsLt_bf16_f32)
          (constant S2000x192 .f32 0x00000000#32))
        (broadcastTo S2000x192 (shapeCast S1x192 b shapeCasts_S1x192_S1x192) broadcasts_S1x192_S2000x192) (ix2 p j)
      = lin (fun k => g (ix2 p k)) w b j := by
  unfold lin
  rw [shapeCast_self, shapeCast_self]
  exact congrArg₂ (· + ·)
    (matmul_plain_zero_apply dot_S2000x64_S64x192_S2000x192_1_0_0_1_n_n rfl none
      (truncf .bf16 g bitsLt_bf16_f32) (truncf .bf16 w bitsLt_bf16_f32) p j)
    (broadcastTo_1b_ab_apply b broadcasts_S1x192_S2000x192 p j)

/-- The input-side pre-activations: the rectified aggregate's row against the input weights. -/
theorem gi_apply (a : Vec Ideal S2000x64 .f32) (b : Vec Ideal S1x64 .f32) (wi : Vec Ideal S64x192 .f32)
    (bi : Vec Ideal S1x192 .f32) (p : Fin 2000) (j : Fin 192) :
    k1_pay3 a b wi bi (ix2 p j) = lin (pre a b p) wi bi j := by
  unfold k1_pay3
  refine (affine_apply _ wi bi p j).trans ?_
  refine congrArg (fun g => lin g wi bi j) (funext fun k => ?_)
  show max (shapeCast S2000x64 a shapeCasts_S2000x64_S2000x64 (ix2 p k)
      + broadcastTo S2000x64 (shapeCast S1x64 b shapeCasts_S1x64_S1x64) broadcasts_S1x64_S2000x64 (ix2 p k)) zero = _
  rw [shapeCast_self, shapeCast_self, broadcastTo_1b_ab_apply]
  rfl

/-- The hidden-side pre-activations: the hidden state's row against the hidden weights. -/
theorem gh_apply (h : Vec Ideal S2000x64 .f32) (wh : Vec Ideal S64x192 .f32) (bh : Vec Ideal S1x192 .f32)
    (p : Fin 2000) (j : Fin 192) :
    k1_pay4 h wh bh (ix2 p j) = lin (fun k => h (ix2 p k)) wh bh j := by
  unfold k1_pay4 k1_pay2
  refine (affine_apply _ wh bh p j).trans ?_
  rw [shapeCast_self]

/-- The update gate: the logistic of the two middle thirds added. -/
theorem z_apply (a : Vec Ideal S2000x64 .f32) (b : Vec Ideal S1x64 .f32) (h : Vec Ideal S2000x64 .f32)
    (wi wh : Vec Ideal S64x192 .f32) (bi bh : Vec Ideal S1x192 .f32) (p : Fin 2000) (q : Fin 64) :
    k1_pay5 a b h wi wh bi bh (ix2 p q)
      = Ideal.logistic (lin (pre a b p) wi bi (colZ q) + lin (fun k => h (ix2 p k)) wh bh (colZ q)) := by
  unfold k1_pay5
  show Ideal.logistic (extractStridedSlice S2000x64 ![0, 64] (k1_pay3 a b wi bi) slices_S2000x192_o0_64_S2000x64 (ix2 p q)
      + extractStridedSlice S2000x64 ![0, 64] (k1_pay4 h wh bh) slices_S2000x192_o0_64_S2000x64 (ix2 p q)) = _
  rw [slice2_axis1_apply 64 _ _ p q (colZ q) rfl, slice2_axis1_apply 64 _ _ p q (colZ q) rfl, gi_apply, gh_apply]

/-- The candidate: tanh of the input side's last third plus the reset gate times the hidden side's last third. -/
theorem n_apply (a : Vec Ideal S2000x64 .f32) (b : Vec Ideal S1x64 .f32) (h : Vec Ideal S2000x64 .f32)
    (wi wh : Vec Ideal S64x192 .f32) (bi bh : Vec Ideal S1x192 .f32) (p : Fin 2000) (q : Fin 64) :
    k1_pay6 a b h wi wh bi bh (ix2 p q)
      = Ideal.tanh (lin (pre a b p) wi bi (colN q)
          + Ideal.logistic (lin (pre a b p) wi bi (colR q) + lin (fun k => h (ix2 p k)) wh bh (colR q))
            * lin (fun k => h (ix2 p k)) wh bh (colN q)) := by
  unfold k1_pay6
  show Ideal.tanh (extractStridedSlice S2000x64 ![0, 128] (k1_pay3 a b wi bi) slices_S2000x192_o0_128_S2000x64 (ix2 p q)
      + Ideal.logistic (extractStridedSlice S2000x64 ![0, 0] (k1_pay3 a b wi bi) slices_S2000x192_o0_0_S2000x64 (ix2 p q)
          + extractStridedSlice S2000x64 ![0, 0] (k1_pay4 h wh bh) slices_S2000x192_o0_0_S2000x64 (ix2 p q))
        * extractStridedSlice S2000x64 ![0, 128] (k1_pay4 h wh bh) slices_S2000x192_o0_128_S2000x64 (ix2 p q)) = _
  rw [slice2_axis1_apply 128 _ _ p q (colN q) rfl, slice2_axis1_apply 128 _ _ p q (colN q) rfl,
    slice2_axis1_apply 0 _ _ p q (colR q) rfl, slice2_axis1_apply 0 _ _ p q (colR q) rfl, gi_apply, gi_apply, gh_apply, gh_apply]

/-- WHAT THE BODY STORES, at entry `(p, q)` of the block: the recurrent step on the block's rows. -/
theorem stored_apply (a : Vec Ideal S2000x64 .f32) (h : Vec Ideal S2000x64 .f32) (b : Vec Ideal S1x64 .f32)
    (wi wh : Vec Ideal S64x192 .f32) (bi bh : Vec Ideal S1x192 .f32) (p : Fin 2000) (q : Fin 64) :
    k1_pay1 (k1_pay2 h) (k1_pay5 a b h wi wh bi bh) (k1_pay6 a b h wi wh bi bh) (Scalar.ofBits .f32 0x3F800000#32) (ix2 p q)
      = step a h b wi wh bi bh (ix2 p q) := by
  rw [step_apply]
  unfold k1_pay1
  show (one - k1_pay5 a b h wi wh bi bh (ix2 p q)) * k1_pay6 a b h wi wh bi bh (ix2 p q)
      + k1_pay5 a b h wi wh bi bh (ix2 p q) * k1_pay2 h (ix2 p q) = _
  rw [z_apply, n_apply]
  unfold k1_pay2
  rw [shapeCast_self]
  rfl

/-- The same at any index of the block. -/
theorem stored_eq (a : Vec Ideal S2000x64 .f32) (h : Vec Ideal S2000x64 .f32) (b : Vec Ideal S1x64 .f32)
    (wi wh : Vec Ideal S64x192 .f32) (bi bh : Vec Ideal S1x192 .f32) :
    k1_pay1 (k1_pay2 h) (k1_pay5 a b h wi wh bi bh) (k1_pay6 a b h wi wh bi bh) (Scalar.ofBits .f32 0x3F800000#32)
      = step a h b wi wh bi bh := by
  funext y
  obtain ⟨p, q, rfl⟩ : ∃ (p : Fin 2000) (q : Fin 64), y = ix2 p q := ⟨y 0, y 1, eq_ix2 y⟩
  exact stored_apply a h b wi wh bi bh p q

end Cert.KernelIdeal.Body1

end
-- ==== Proof.Region1.lean ====
/-
  What the second region leaves in its result array: the recurrent step on the whole operand arrays.

  The region runs over fifty points.  Point t reads rows 2000·t … 2000·t + 1999 of the aggregate and of the hidden
  state, and the whole of the five small operands (the bias row, the two weight matrices, the two bias rows), and writes
  its block back as the same rows of the result.  An entry of the step depends only on its own row of the aggregate and
  of the hidden state, so the block written at point t is the block of the step on the whole arrays; the fifty blocks
  cover the result.  The statements take the region's entry contents `V` as a parameter.
-/
import proofs.«100885_j70489003261973_1_alg».proof.Proof.Gen.KernelIdeal.Frame
import proofs.«100885_j70489003261973_1_alg».proof.Proof.Body1
import Idealize.ShloMosaic.Lib.Pipeline.Value

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the aggregate, hidden-state and result windows move down the rows with the point,
    the five small operands' windows stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The aggregate window's block at point `t` is rows 2000·t … of the aggregate. -/
theorem agg_apply (c : Dev nD) (t : Fin cfg1.N) (x : S2000x64.Idx) (k : S100000x64.Idx)
    (hk0 : (k 0).val = 2000 * t.val + (x 0).val) (hk1 : (k 1).val = (x 1).val) :
    (iblk1 V c 0 t : Vec Ideal S2000x64 .f32) x = (V c main_v43 : S100000x64.Idx → EReal) k := by
  obtain ⟨e0, e1, -⟩ := idx_facts t
  unfold iblk1
  rw [View.read_apply]
  show V c main_v43 _ = V c main_v43 _
  refine congrArg (V c main_v43) ?_
  funext a
  apply Fin.ext
  match a with
  | ⟨0, _⟩ => show win1_0.index t (0 : Fin 2) * 2000 + 1 * (x 0).val = (k 0).val; rw [e0, hk0]; omega
  | ⟨1, _⟩ => show win1_0.index t (1 : Fin 2) * 64 + 1 * (x 1).val = (k 1).val; rw [e1, hk1]; omega

/-- The hidden-state window's block at point `t` is rows 2000·t … of the hidden state. -/
theorem hid_apply (c : Dev nD) (t : Fin cfg1.N) (x : S2000x64.Idx) (k : S100000x64.Idx)
    (hk0 : (k 0).val = 2000 * t.val + (x 0).val) (hk1 : (k 1).val = (x 1).val) :
    (iblk1 V c 1 t : Vec Ideal S2000x64 .f32) x = (V c main_v44 : S100000x64.Idx → EReal) k := by
  obtain ⟨-, -, e0, e1, -⟩ := idx_facts t
  unfold iblk1
  rw [View.read_apply]
  show V c main_v44 _ = V c main_v44 _
  refine congrArg (V c main_v44) ?_
  funext a
  apply Fin.ext
  match a with
  | ⟨0, _⟩ => show win1_1.index t (0 : Fin 2) * 2000 + 1 * (x 0).val = (k 0).val; rw [e0, hk0]; omega
  | ⟨1, _⟩ => show win1_1.index t (1 : Fin 2) * 64 + 1 * (x 1).val = (k 1).val; rw [e1, hk1]; omega

/-- Window 2's block at every point is its whole array. -/
theorem small2_eq (c : Dev nD) (t : Fin cfg1.N) :
    (iblk1 V c 2 t : Vec Ideal S1x64 .f32) = (V c main_v45 : S1x64.Idx → EReal) := by
  obtain ⟨-, -, -, -, e0, e1, -, -, -, -, -, -, -, -, -, -⟩ := idx_facts t
  funext x
  unfold iblk1
  rw [View.read_apply]
  show V c main_v45 _ = V c main_v45 _
  refine congrArg (V c main_v45) ?_
  funext a
  apply Fin.ext
  match a with
  | ⟨0, _⟩ => show win1_2.index t (0 : Fin 2) * 1 + 1 * (x 0).val = (x 0).val; rw [e0]; omega
  | ⟨1, _⟩ => show win1_2.index t (1 : Fin 2) * 64 + 1 * (x 1).val = (x 1).val; rw [e1]; omega

/-- Window 3's block at every point is its whole array. -/
theorem small3_eq (c : Dev nD) (t : Fin cfg1.N) :
    (iblk1 V c 3 t : Vec Ideal S64x192 .f32) = (V c main_v46 : S64x192.Idx → EReal) := by
  obtain ⟨-, -, -, -, -, -, e0, e1, -, -, -, -, -, -, -, -⟩ := idx_facts t
  funext x
  unfold iblk1
  rw [View.read_apply]
  show V c main_v46 _ = V c main_v46 _
  refine congrArg (V c main_v46) ?_
  funext a
  apply Fin.ext
  match a with
  | ⟨0, _⟩ => show win1_3.index t (0 : Fin 2) * 64 + 1 * (x 0).val = (x 0).val; rw [e0]; omega
  | ⟨1, _⟩ => show win1_3.index t (1 : Fin 2) * 192 + 1 * (x 1).val = (x 1).val; rw [e1]; omega

/-- Window 4's block at every point is its whole array. -/
theorem small4_eq (c : Dev nD) (t : Fin cfg1.N) :
    (iblk1 V c 4 t : Vec Ideal S64x192 .f32) = (V c main_v47 : S64x192.Idx → EReal) := by
  obtain ⟨-, -, -, -, -, -, -, -, e0, e1, -, -, -, -, -, -⟩ := idx_facts t
  funext x
  unfold iblk1
  rw [View.read_apply]
  show V c main_v47 _ = V c main_v47 _
  refine congrArg (V c main_v47) ?_
  funext a
  apply Fin.ext
  match a with
  | ⟨0, _⟩ => show win1_4.index t (0 : Fin 2) * 64 + 1 * (x 0).val = (x 0).val; rw [e0]; omega
  | ⟨1, _⟩ => show win1_4.index t (1 : Fin 2) * 192 + 1 * (x 1).val = (x 1).val; rw [e1]; omega

/-- Window 5's block at every point is its whole array. -/
theorem small5_eq (c : Dev nD) (t : Fin cfg1.N) :
    (iblk1 V c 5 t : Vec Ideal S1x192 .f32) = (V c main_v48 : S1x192.Idx → EReal) := by
  obtain ⟨-, -, -, -, -, -, -, -, -, -, e0, e1, -, -, -, -⟩ := idx_facts t
  funext x
  unfold iblk1
  rw [View.read_apply]
  show V c main_v48 _ = V c main_v48 _
  refine congrArg (V c main_v48) ?_
  funext a
  apply Fin.ext
  match a with
  | ⟨0, _⟩ => show win1_5.index t (0 : Fin 2) * 1 + 1 * (x 0).val = (x 0).val; rw [e0]; omega
  | ⟨1, _⟩ => show win1_5.index t (1 : Fin 2) * 192 + 1 * (x 1).val = (x 1).val; rw [e1]; omega

/-- Window 6's block at every point is its whole array. -/
theorem small6_eq (c : Dev nD) (t : Fin cfg1.N) :
    (iblk1 V c 6 t : Vec Ideal S1x192 .f32) = (V c main_v49 : S1x192.Idx → EReal) := by
  obtain ⟨-, -, -, -, -, -, -, -, -, -, -, -, e0, e1, -, -⟩ := idx_facts t
  funext x
  unfold iblk1
  rw [View.read_apply]
  show V c main_v49 _ = V c main_v49 _
  refine congrArg (V c main_v49) ?_
  funext a
  apply Fin.ext
  match a with
  | ⟨0, _⟩ => show win1_6.index t (0 : Fin 2) * 1 + 1 * (x 0).val = (x 0).val; rw [e0]; omega
  | ⟨1, _⟩ => show win1_6.index t (1 : Fin 2) * 192 + 1 * (x 1).val = (x 1).val; rw [e1]; omega

/-- WHAT POINT `t` WRITES BACK is block `t` of the step on the whole operand arrays. -/
theorem flushed_eq (c : Dev nD) (t : Fin cfg1.N) :
    (dat1 V c).flushed 7 t = ((cfg1.win 7).blk t).view.read (Elt Ideal)
      (step (V c main_v43) (V c main_v44) (V c main_v45) (V c main_v46) (V c main_v47) (V c main_v48) (V c main_v49)) := by
  obtain ⟨-, -, -, -, -, -, -, -, -, -, -, -, -, -, e14, e15⟩ := idx_facts t
  show (cfg1.win 7).cut (grid1.coords t) ((dat1 V c).after 7 t) = _
  rw [after1_7]
  unfold out1_7
  rw [View.canon_unit_zero hz]
  simp only [View.ld_unit_zero (S := S2000x64) hz, View.ld_unit_zero (S := S1x64) hz, View.ld_unit_zero (S := S64x192) hz,
    View.ld_unit_zero (S := S1x192) hz]
  rw [Cert.KernelIdeal.Body1.stored_eq]
  refine funext fun (y : S2000x64.Idx) => ?_
  refine step_reindex (R := 2000) (R' := 100000) (V c main_v43) (V c main_v44) (iblk1 V c 0 t) (iblk1 V c 1 t)
    (V c main_v45) (iblk1 V c 2 t) (V c main_v46) (iblk1 V c 3 t) (V c main_v47) (iblk1 V c 4 t)
    (V c main_v48) (iblk1 V c 5 t) (V c main_v49) (iblk1 V c 6 t)
    y (((cfg1.win 7).blk t).view.emb y) (fun k => ?_) (fun k => ?_)
    (small2_eq V c t) (small3_eq V c t) (small4_eq V c t) (small5_eq V c t) (small6_eq V c t) ?_
  · refine agg_apply V c t (ix2 (y 0) k) _ ?_ rfl
    show win1_7.index t (0 : Fin 2) * 2000 + 1 * (y 0).val = 2000 * t.val + (y 0).val
    rw [e14]; omega
  · refine hid_apply V c t (ix2 (y 0) k) _ ?_ rfl
    show win1_7.index t (0 : Fin 2) * 2000 + 1 * (y 0).val = 2000 * t.val + (y 0).val
    rw [e14]; omega
  · show (y 1).val = win1_7.index t (1 : Fin 2) * 64 + 1 * (y 1).val
    rw [e15]; omega

/-- An index of the result is in point `t`'s block iff each coordinate is in the block's range on its axis. -/
theorem mem_blk (t : Fin cfg1.N) (i : S100000x64.Idx) :
    i ∈ ((cfg1.win 7).blk t).view.set ↔ ∀ a : Fin 2, win1_7.index t a * S2000x64.size a ≤ (i a).val ∧ (i a).val < win1_7.index t a * S2000x64.size a + S2000x64.size a := by
  show i ∈ ((View.whole main_v50).slice (win1_7.rect t)).set ↔ _
  rw [View.set_slice_whole, Rect.mem_set_unit]
  exact Iff.rfl

/-- Every index of the result is in the block of the point its row falls in. -/
theorem cover (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 50 := N_1
  have hlt : (i 0).val / 2000 < cfg1.N := by rw [hN]; omega
  obtain ⟨-, -, -, -, -, -, -, -, -, -, -, -, -, -, e14, e15⟩ := idx_facts ⟨(i 0).val / 2000, hlt⟩
  refine ⟨⟨(i 0).val / 2000, hlt⟩, flush1_7 _, ?_⟩
  rw [mem_blk]
  intro a
  match a with
  | ⟨0, _⟩ =>
    show win1_7.index ⟨(i 0).val / 2000, hlt⟩ (0 : Fin 2) * 2000 ≤ (i 0).val ∧ (i 0).val < win1_7.index ⟨(i 0).val / 2000, hlt⟩ (0 : Fin 2) * 2000 + 2000
    rw [e14]; show (i 0).val / 2000 * 2000 ≤ (i 0).val ∧ (i 0).val < (i 0).val / 2000 * 2000 + 2000; omega
  | ⟨1, _⟩ =>
    show win1_7.index ⟨(i 0).val / 2000, hlt⟩ (1 : Fin 2) * 64 ≤ (i 1).val ∧ (i 1).val < win1_7.index ⟨(i 0).val / 2000, hlt⟩ (1 : Fin 2) * 64 + 64
    rw [e15]; omega

/-- THE RESULT ARRAY after the region: the step on the seven operand arrays as the region finds them. -/
theorem final (c : Dev nD) : (dat1 V c).arrAt 7 cfg1.N
    = step (V c main_v43) (V c main_v44) (V c main_v45) (V c main_v46) (V c main_v47) (V c main_v48) (V c main_v49) :=
  (dat1 V c).arrAt_eq_of_cover 7
    (step (V c main_v43) (V c main_v44) (V c main_v45) (V c main_v46) (V c main_v47) (V c main_v48) (V c main_v49))
    (fun t _ => flushed_eq V c t) (cover)

end Cert.KernelIdeal.Region1

end
-- ==== Proof.Glue.lean ====
/-
  The kernel program's two results as functions of its arguments.

  Through the boundaries of the run: the first region leaves the matrix product  x · W  in its result array; the host
  operations between the regions aggregate it over the edges (the chain `agg`, the same operations as the reference's,
  compared as whole terms and never opened), drop the hidden state's unit axis, write the bias vectors as rows and
  transpose the weight matrices; the second region leaves the recurrent step on those seven arrays in its result
  array; the last host operation puts the unit axis back.
-/
import proofs.«100885_j70489003261973_1_alg».proof.Proof.Gen.KernelIdeal.Frame
import proofs.«100885_j70489003261973_1_alg».proof.Proof.Region0
import proofs.«100885_j70489003261973_1_alg».proof.Proof.Region1
import proofs.«100885_j70489003261973_1_alg».proof.Proof.RefValue
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo
open Cert.LibDotGeneralPlain Cert.Spec
open Cert.ReferenceIdeal.RefValue (agg)

variable (m : (ℓ : Loc nD τ sig) → Buf (Elt Ideal) ℓ) (ρ : Dev nD → PrngReg)

/-- After the first region its result array holds the product of the feature array and the weight matrix. -/
theorem xt_eq (c : Dev nD) : W1 m ρ c (Proc.devRef .tc main_v0)
    = matProd (m ((c : Thread nD τ).loc main_arg0)) (m ((c : Thread nD τ).loc main_arg3)) :=
  (W1_arr m ρ c 2).trans (Cert.KernelIdeal.Region0.final (V0 m ρ) c)

/-- The first region leaves the other arguments as launched. -/
theorem keep1 (c : Dev nD) : W1 m ρ c (Proc.devRef .tc main_arg1) = m ((c : Thread nD τ).loc main_arg1) := W1_of_ne m ρ c main_arg1 (by decide)
theorem keep2 (c : Dev nD) : W1 m ρ c (Proc.devRef .tc main_arg2) = m ((c : Thread nD τ).loc main_arg2) := W1_of_ne m ρ c main_arg2 (by decide)
theorem keep4 (c : Dev nD) : W1 m ρ c (Proc.devRef .tc main_arg4) = m ((c : Thread nD τ).loc main_arg4) := W1_of_ne m ρ c main_arg4 (by decide)
theorem keep5 (c : Dev nD) : W1 m ρ c (Proc.devRef .tc main_arg5) = m ((c : Thread nD τ).loc main_arg5) := W1_of_ne m ρ c main_arg5 (by decide)
theorem keep6 (c : Dev nD) : W1 m ρ c (Proc.devRef .tc main_arg6) = m ((c : Thread nD τ).loc main_arg6) := W1_of_ne m ρ c main_arg6 (by decide)
theorem keep7 (c : Dev nD) : W1 m ρ c (Proc.devRef .tc main_arg7) = m ((c : Thread nD τ).loc main_arg7) := W1_of_ne m ρ c main_arg7 (by decide)
theorem keep8 (c : Dev nD) : W1 m ρ c (Proc.devRef .tc main_arg8) = m ((c : Thread nD τ).loc main_arg8) := W1_of_ne m ρ c main_arg8 (by decide)

/-! The host operations between the regions, one stretch at a time, over ANY contents `W` at the stretch's entry. -/

section Stretches

variable (W : Valuation τ sig (Elt Ideal))

/-- The last stretch: the aggregate from the transformed features, the two index lists and the normalisation vector. -/
theorem stretch3_agg : StableHlo.after hostOps1_2 W (Proc.devRef .tc main_v43)
    = Cert.ReferenceIdeal.RefValue.edgeSum (W (Proc.devRef .tc main_v0)) (W (Proc.devRef .tc main_v4)) (W (Proc.devRef .tc main_v7))
        (W (Proc.devRef .tc main_v15)) := by
  after_results_simp
  repeat (first
    | rw [StableHlo.reshape_result] | rw [StableHlo.unary_result] | rw [StableHlo.binary_result] | rw [StableHlo.nullary_result] | rw [StableHlo.ternary_result]
    | (rw [StableHlo.nullary_result_ne]; rotate_left; decide) | (rw [StableHlo.unary_result_ne]; rotate_left; decide)
    | (rw [StableHlo.binary_result_ne]; rotate_left; decide) | (rw [StableHlo.reshape_result_ne]; rotate_left; decide) | (rw [StableHlo.ternary_result_ne]; rotate_left; decide))
  rfl

/-- The middle stretch: the normalisation vector from the comparison, the inverse square root and the zero. -/
theorem stretch2_where : StableHlo.after hostOps1_1 W (Proc.devRef .tc main_v15)
    = Cert.ReferenceIdeal.RefValue.whereZero (W (Proc.devRef .tc main_v13)) (W (Proc.devRef .tc main_v14)) (W (Proc.devRef .tc main_cst_2)) := by
  after_results_simp
  repeat (first
    | rw [StableHlo.reshape_result] | rw [StableHlo.unary_result] | rw [StableHlo.binary_result] | rw [StableHlo.nullary_result] | rw [StableHlo.ternary_result]
    | (rw [StableHlo.nullary_result_ne]; rotate_left; decide) | (rw [StableHlo.unary_result_ne]; rotate_left; decide)
    | (rw [StableHlo.binary_result_ne]; rotate_left; decide) | (rw [StableHlo.reshape_result_ne]; rotate_left; decide) | (rw [StableHlo.ternary_result_ne]; rotate_left; decide))
  rfl
theorem stretch2_v0 : StableHlo.after hostOps1_1 W (Proc.devRef .tc main_v0) = W (Proc.devRef .tc main_v0) := by
  after_results_simp <;> rfl
theorem stretch2_v4 : StableHlo.after hostOps1_1 W (Proc.devRef .tc main_v4) = W (Proc.devRef .tc main_v4) := by
  after_results_simp <;> rfl
theorem stretch2_v7 : StableHlo.after hostOps1_1 W (Proc.devRef .tc main_v7) = W (Proc.devRef .tc main_v7) := by
  after_results_simp <;> rfl

/-- The first stretch: the index lists, the degree comparison, its inverse square root and the zero, from the edge list. -/
theorem stretch1_v0 : StableHlo.after hostOps1 W (Proc.devRef .tc main_v0) = W (Proc.devRef .tc main_v0) := by
  after_results_simp <;> rfl
theorem stretch1_row : StableHlo.after hostOps1 W (Proc.devRef .tc main_v4)
    = Cert.ReferenceIdeal.Read.val_main_v3 (F := Ideal) (W (Proc.devRef .tc main_arg1)) := by
  after_results_simp
  repeat (first
    | rw [StableHlo.reshape_result] | rw [StableHlo.unary_result] | rw [StableHlo.binary_result] | rw [StableHlo.nullary_result] | rw [StableHlo.ternary_result]
    | (rw [StableHlo.nullary_result_ne]; rotate_left; decide) | (rw [StableHlo.unary_result_ne]; rotate_left; decide)
    | (rw [StableHlo.binary_result_ne]; rotate_left; decide) | (rw [StableHlo.reshape_result_ne]; rotate_left; decide) | (rw [StableHlo.ternary_result_ne]; rotate_left; decide))
  rfl
theorem stretch1_col : StableHlo.after hostOps1 W (Proc.devRef .tc main_v7)
    = Cert.ReferenceIdeal.Read.val_main_v6 (F := Ideal) (W (Proc.devRef .tc main_arg1)) := by
  after_results_simp
  repeat (first
    | rw [StableHlo.reshape_result] | rw [StableHlo.unary_result] | rw [StableHlo.binary_result] | rw [StableHlo.nullary_result] | rw [StableHlo.ternary_result]
    | (rw [StableHlo.nullary_result_ne]; rotate_left; decide) | (rw [StableHlo.unary_result_ne]; rotate_left; decide)
    | (rw [StableHlo.binary_result_ne]; rotate_left; decide) | (rw [StableHlo.reshape_result_ne]; rotate_left; decide) | (rw [StableHlo.ternary_result_ne]; rotate_left; decide))
  rfl
theorem stretch1_pos : StableHlo.after hostOps1 W (Proc.devRef .tc main_v13)
    = Cert.ReferenceIdeal.Read.val_main_v12 (F := Ideal) (W (Proc.devRef .tc main_arg1)) := by
  after_results_simp
  repeat (first
    | rw [StableHlo.reshape_result] | rw [StableHlo.unary_result] | rw [StableHlo.binary_result] | rw [StableHlo.nullary_result] | rw [StableHlo.ternary_result]
    | (rw [StableHlo.nullary_result_ne]; rotate_left; decide) | (rw [StableHlo.unary_result_ne]; rotate_left; decide)
    | (rw [StableHlo.binary_result_ne]; rotate_left; decide) | (rw [StableHlo.reshape_result_ne]; rotate_left; decide) | (rw [StableHlo.ternary_result_ne]; rotate_left; decide))
  rfl
theorem stretch1_inv : StableHlo.after hostOps1 W (Proc.devRef .tc main_v14)
    = Cert.ReferenceIdeal.Read.val_main_v13 (F := Ideal) (W (Proc.devRef .tc main_arg1)) := by
  after_results_simp
  repeat (first
    | rw [StableHlo.reshape_result] | rw [StableHlo.unary_result] | rw [StableHlo.binary_result] | rw [StableHlo.nullary_result] | rw [StableHlo.ternary_result]
    | (rw [StableHlo.nullary_result_ne]; rotate_left; decide) | (rw [StableHlo.unary_result_ne]; rotate_left; decide)
    | (rw [StableHlo.binary_result_ne]; rotate_left; decide) | (rw [StableHlo.reshape_result_ne]; rotate_left; decide) | (rw [StableHlo.ternary_result_ne]; rotate_left; decide))
  rfl
theorem stretch1_zero : StableHlo.after hostOps1 W (Proc.devRef .tc main_cst_2)
    = Cert.ReferenceIdeal.Read.val_main_cst_2 (F := Ideal) := by
  after_results_simp
  repeat (first
    | rw [StableHlo.reshape_result] | rw [StableHlo.unary_result] | rw [StableHlo.binary_result] | rw [StableHlo.nullary_result] | rw [StableHlo.ternary_result]
    | (rw [StableHlo.nullary_result_ne]; rotate_left; decide) | (rw [StableHlo.unary_result_ne]; rotate_left; decide)
    | (rw [StableHlo.binary_result_ne]; rotate_left; decide) | (rw [StableHlo.reshape_result_ne]; rotate_left; decide) | (rw [StableHlo.ternary_result_ne]; rotate_left; decide))
  rfl

end Stretches

/-- What the second region finds in its seven operand arrays, from the contents the first region left. -/
theorem in43 (c : Dev nD) : V4 m ρ c main_v43 = agg (W1 m ρ c (Proc.devRef .tc main_v0)) (W1 m ρ c (Proc.devRef .tc main_arg1)) := by
  show StableHlo.after hostOps1_2 (StableHlo.after hostOps1_1 (StableHlo.after hostOps1 (W1 m ρ c))) (Proc.devRef .tc main_v43) = _
  rw [stretch3_agg, stretch2_where, stretch2_v0, stretch2_v4, stretch2_v7, stretch1_v0, stretch1_row, stretch1_col, stretch1_pos,
    stretch1_inv, stretch1_zero]
  rfl
theorem in44 (c : Dev nD) : V4 m ρ c main_v44 = shapeCast S100000x64 (W1 m ρ c (Proc.devRef .tc main_arg2)) shapeCasts_S1x100000x64_S100000x64 := by
  show StableHlo.after hostOps1_2 (StableHlo.after hostOps1_1 (StableHlo.after hostOps1 (W1 m ρ c))) (Proc.devRef .tc main_v44) = _
  after_results_simp <;> rfl
theorem in45 (c : Dev nD) : V4 m ρ c main_v45 = shapeCast S1x64 (W1 m ρ c (Proc.devRef .tc main_arg4)) shapeCasts_S64_S1x64 := by
  show StableHlo.after hostOps1_2 (StableHlo.after hostOps1_1 (StableHlo.after hostOps1 (W1 m ρ c))) (Proc.devRef .tc main_v45) = _
  after_results_simp <;> rfl
theorem in46 (c : Dev nD) : V4 m ρ c main_v46 = transpose S64x192 [1, 0] (W1 m ρ c (Proc.devRef .tc main_arg5)) transposes_S192x64_S64x192_1_0 := by
  show StableHlo.after hostOps1_2 (StableHlo.after hostOps1_1 (StableHlo.after hostOps1 (W1 m ρ c))) (Proc.devRef .tc main_v46) = _
  after_results_simp <;> rfl
theorem in47 (c : Dev nD) : V4 m ρ c main_v47 = transpose S64x192 [1, 0] (W1 m ρ c (Proc.devRef .tc main_arg6)) transposes_S192x64_S64x192_1_0 := by
  show StableHlo.after hostOps1_2 (StableHlo.after hostOps1_1 (StableHlo.after hostOps1 (W1 m ρ c))) (Proc.devRef .tc main_v47) = _
  after_results_simp <;> rfl
theorem in48 (c : Dev nD) : V4 m ρ c main_v48 = shapeCast S1x192 (W1 m ρ c (Proc.devRef .tc main_arg7)) shapeCasts_S192_S1x192 := by
  show StableHlo.after hostOps1_2 (StableHlo.after hostOps1_1 (StableHlo.after hostOps1 (W1 m ρ c))) (Proc.devRef .tc main_v48) = _
  after_results_simp <;> rfl
theorem in49 (c : Dev nD) : V4 m ρ c main_v49 = shapeCast S1x192 (W1 m ρ c (Proc.devRef .tc main_arg8)) shapeCasts_S192_S1x192 := by
  show StableHlo.after hostOps1_2 (StableHlo.after hostOps1_1 (StableHlo.after hostOps1 (W1 m ρ c))) (Proc.devRef .tc main_v49) = _
  after_results_simp <;> rfl

/-- THE NEW HIDDEN STATE as a function of the nine arguments. -/
def out (c : Dev nD) : S100000x64.Idx → EReal :=
  step (agg (matProd (m ((c : Thread nD τ).loc main_arg0)) (m ((c : Thread nD τ).loc main_arg3))) (m ((c : Thread nD τ).loc main_arg1)))
    (shapeCast S100000x64 (m ((c : Thread nD τ).loc main_arg2)) shapeCasts_S1x100000x64_S100000x64)
    (shapeCast S1x64 (m ((c : Thread nD τ).loc main_arg4)) shapeCasts_S64_S1x64)
    (transpose S64x192 [1, 0] (m ((c : Thread nD τ).loc main_arg5)) transposes_S192x64_S64x192_1_0)
    (transpose S64x192 [1, 0] (m ((c : Thread nD τ).loc main_arg6)) transposes_S192x64_S64x192_1_0)
    (shapeCast S1x192 (m ((c : Thread nD τ).loc main_arg7)) shapeCasts_S192_S1x192)
    (shapeCast S1x192 (m ((c : Thread nD τ).loc main_arg8)) shapeCasts_S192_S1x192)

/-- After the second region its result array holds `out`. -/
theorem region1_out (c : Dev nD) : W5 m ρ c (Proc.devRef .tc main_v50) = out m c := by
  refine (W5_arr m ρ c 7).trans ((Cert.KernelIdeal.Region1.final (V4 m ρ) c).trans ?_)
  rw [in43 m ρ c, in44 m ρ c, in45 m ρ c, in46 m ρ c, in47 m ρ c, in48 m ρ c, in49 m ρ c, xt_eq m ρ c, keep1 m ρ c,
    keep2 m ρ c, keep4 m ρ c, keep5 m ρ c, keep6 m ρ c, keep7 m ρ c, keep8 m ρ c]
  rfl

/-- The first result ends at `out`. -/
theorem result0 (c : Dev nD) : W6 m ρ c (Proc.devRef .tc main_v50) = out m c := by
  refine Eq.trans ?_ (region1_out m ρ c)
  show StableHlo.after hostOps2 (W5 m ρ c) (Proc.devRef .tc main_v50) = _
  after_results_simp <;> rfl

/-- The second result ends at `out` with a leading unit axis. -/
theorem result1 (c : Dev nD) : W6 m ρ c (Proc.devRef .tc main_v51)
    = broadcastInDim S1x100000x64 ![1, 2] bcast_S100000x64_S1x100000x64_1_2 (out m c) := by
  rw [← region1_out m ρ c]
  show StableHlo.after hostOps2 (W5 m ρ c) (Proc.devRef .tc main_v51) = _
  after_results_simp <;> rfl

end Cert.KernelIdeal.Glue

end
-- ==== Proof.lean ====
/-
  The claim: the gated-recurrent step on graph-aggregated features, as two pipelined kernels among host operations,
  against the plain host reference, over the extended reals.

  Both programs compute, for every node r and hidden column q,
      out(r, q) = (1 − z) · n + z · h(r, q)
  with  g = max(agg + b, 0),  gi = g · Wiᵀ + bi,  gh = h · Whᵀ + bh,  r = σ(gi_r + gh_r),  z = σ(gi_z + gh_z),
  n = tanh(gi_n + r · gh_n),  where  agg  is the normalised aggregation over the edges (with self loops) of the
  transformed features  x · W.  The kernel program computes  x · W  ten row blocks at a time and the step fifty row
  blocks at a time; an entry of either depends only on its own row, so the blocks are blocks of the whole-array
  functions (Region0, Region1).  The aggregation is the same chain of host operations in both programs and is carried
  as one function of the transformed features and the edge list (Glue, RefValue).  The reference spells the logistic
  function as a quotient, which over the extended reals is the same function.  No law that needs finite inputs is used:
  the precondition is not opened.  The three frames are the generated ones (the reference's from its run); the
  idealization rewrote nothing.
-/
import proofs.«100885_j70489003261973_1_alg».proof.Defs
import proofs.«100885_j70489003261973_1_alg».proof.Proof.Gen.Kernel
import proofs.«100885_j70489003261973_1_alg».proof.Proof.Gen.Kernel.Skeleton
import proofs.«100885_j70489003261973_1_alg».proof.Proof.Gen.Kernel.Launch
import proofs.«100885_j70489003261973_1_alg».proof.Proof.Gen.Kernel.Points
import proofs.«100885_j70489003261973_1_alg».proof.Proof.Gen.Kernel.Frame
import proofs.«100885_j70489003261973_1_alg».proof.Proof.Gen.KernelIdeal
import proofs.«100885_j70489003261973_1_alg».proof.Proof.Gen.KernelIdeal.Skeleton
import proofs.«100885_j70489003261973_1_alg».proof.Proof.Gen.KernelIdeal.Launch
import proofs.«100885_j70489003261973_1_alg».proof.Proof.Gen.KernelIdeal.Points
import proofs.«100885_j70489003261973_1_alg».proof.Proof.Gen.KernelIdeal.Frame
import proofs.«100885_j70489003261973_1_alg».proof.Proof.Gen.ReferenceIdeal
import proofs.«100885_j70489003261973_1_alg».proof.Proof.Gen.Pre_finite_inputs
import proofs.«100885_j70489003261973_1_alg».proof.Proof.RefRun
import proofs.«100885_j70489003261973_1_alg».proof.Proof.RefRead
import proofs.«100885_j70489003261973_1_alg».proof.Proof.RefValue
import proofs.«100885_j70489003261973_1_alg».proof.Proof.KernelRun
import proofs.«100885_j70489003261973_1_alg».proof.Proof.Glue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the new hidden state `Glue.out` of the (agreeing) arguments, and with it under a leading
    unit axis. -/
theorem algebraic : Cert.algebraic_KernelIdeal_ReferenceIdeal := by
  intro m ρ m' ρ' _ hagree
  refine ⟨fun c => Cert.KernelIdeal.Glue.out m c,
    fun c => broadcastInDim Cert.KernelIdeal.S1x100000x64 ![1, 2] Cert.KernelIdeal.Facts₀.bcast_S100000x64_S1x100000x64_1_2
      (Cert.KernelIdeal.Glue.out m c), ?_, ?_⟩
  · exact (θ_run Cert.KernelIdeal.defs _ _).mono
      (fun r h c => ⟨(h c).1.trans (Cert.KernelIdeal.Glue.result0 m ρ c),
        (h c).2.1.trans (Cert.KernelIdeal.Glue.result1 m ρ c), (h c).2.2⟩)
      (Cert.KernelIdeal.Whole.run_results m ρ)
  · refine (θ_run Cert.ReferenceIdeal.defs _ _).mono (fun _ h c => ?_) (Cert.ReferenceIdeal.Value.run (F := Ideal) m' ρ')
    obtain ⟨h0, h1, hrest⟩ := h c
    obtain ⟨a0, a1, a2, a3, a4, a5, a6, a7, a8⟩ := hagree c
    have e := Cert.ReferenceIdeal.RefValue.out_eq
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      Cert.KernelIdeal.Facts₀.shapeCasts_S1x100000x64_S100000x64 Cert.KernelIdeal.Facts₀.shapeCasts_S64_S1x64
      Cert.KernelIdeal.Facts₀.transposes_S192x64_S64x192_1_0 Cert.KernelIdeal.Facts₀.shapeCasts_S192_S1x192
    have key := e.trans (show _ = Cert.KernelIdeal.Glue.out m c by rw [a0, a1, a2, a3, a4, a5, a6, a7, a8]; rfl)
    refine ⟨h0.trans ((Cert.ReferenceIdeal.Read.val_main_v86_eq m' c).trans key),
      h1.trans ((Cert.ReferenceIdeal.Read.val_main_v87_eq m' c).trans ?_), hrest⟩
    unfold Cert.ReferenceIdeal.Read.val_main_v87
    rw [key]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
